-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S2x1600000 : Shape := ⟨2, ![2, 1600000]⟩
abbrev S1600000 : Shape := ⟨1, ![1600000]⟩
abbrev S50000x32 : Shape := ⟨2, ![50000, 32]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg0 : IVec S1024 32) (main_v13 : IVec S_ 1) (main_v15 : IVec S1024 1) (main_c_5 : IVec S_ 32) : IVec S_ 1 :=
  let main_v16 : IVec S1024 32 := broadcastInDim S1024 ![] bcast_S_S1024 main_c_5
  let main_v17 : IVec S1024 1 := cmpi .slt main_arg0 main_v16
  let main_v18 : IVec S1024 1 := andi main_v15 main_v17
  let main_c_6 : IVec S_ 1 := constantI S_ 1 1#1
  let main_v19 : IVec S_ 1 := (fun x v => Host.reduce IntOp.andi x v reducesTo_S1024_S_d0 h_S_) main_v18 main_c_6
  let main_v20 : IVec S_ 1 := andi main_v13 main_v19
  main_v20

def fn {F : FTy → Type} [FloatOps F] (main_arg0 : IVec S1024 32) (main_arg1 : IVec S2x1600000 32) (main_arg2 : FVec F S1600000 .f32) (main_arg3 : FVec F S50000x32 .f32) (main_arg4 : FVec F S50000x32 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S50000x32 .f32 := Host.absf main_arg3
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S50000x32 .f32 := Host.absf main_arg4
  let main_cst_2 : FVec F S_ .f32 := constant S_ .f32 0x7F800000#32
  let main_v10 : FVec F S50000x32 .f32 := broadcastInDim S50000x32 ![] bcast_S_S50000x32 main_cst_2
  let main_v11 : IVec S50000x32 1 := cmpf .olt main_v9 main_v10
  let main_c_3 : IVec S_ 1 := constantI S_ 1 1#1
  let main_v12 : IVec S_ 1 := (fun x v => Host.reduce IntOp.andi x v reducesTo_S50000x32_S_d0_1 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg0 main_v14
  let main_c_5 : IVec S_ 32 := constantI S_ 32 50000#32
  fn_part1 (F := F) main_arg0 main_v13 main_v15 main_c_5
-- ==== Kernel.lean ====
abbrev S1024 : Shape := ⟨1, ![1024]⟩
abbrev S2x1600000 : Shape := ⟨2, ![2, 1600000]⟩
abbrev S1600000 : Shape := ⟨1, ![1600000]⟩
abbrev S50000x32 : Shape := ⟨2, ![50000, 32]⟩
abbrev S100000x32 : Shape := ⟨2, ![100000, 32]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S1024x1 : Shape := ⟨2, ![1024, 1]⟩
abbrev S1024x32 : Shape := ⟨2, ![1024, 32]⟩
abbrev S1024x50000 : Shape := ⟨2, ![1024, 50000]⟩
abbrev S64x32 : Shape := ⟨2, ![64, 32]⟩
abbrev S64x50000 : Shape := ⟨2, ![64, 50000]⟩

abbrev nBuf : Space → Nat
  | .hbm => 75
  | .vmem => 5
  | .smem => 0
  | _ => 0

abbrev bufTy : (tb : Table) → Fin (tcTables nBuf tb) → BufTy
  | .hbm, ⟨0, _⟩ => ⟨S1024, .i32⟩
  | .hbm, ⟨1, _⟩ => ⟨S2x1600000, .i32⟩
  | .hbm, ⟨2, _⟩ => ⟨S1600000, .f32⟩
  | .hbm, ⟨3, _⟩ => ⟨S50000x32, .f32⟩
  | .hbm, ⟨4, _⟩ => ⟨S50000x32, .f32⟩
  | .hbm, ⟨5, _⟩ => ⟨S100000x32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x32, .f32⟩
  | .hbm, ⟨19, _⟩ => ⟨S1600000x1, .f32⟩
  | .hbm, ⟨20, _⟩ => ⟨S1600000x32, .f32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .hbm, ⟨26, _⟩ => ⟨S100000x32, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x32, .f32⟩
  | .hbm, ⟨36, _⟩ => ⟨S1600000x1, .f32⟩
  | .hbm, ⟨37, _⟩ => ⟨S1600000x32, .f32⟩
  | .hbm, ⟨38, _⟩ => ⟨S1600000x32, .f32⟩
  | .hbm, ⟨39, _⟩ => ⟨S_, .f32⟩
  | .hbm, ⟨40, _⟩ => ⟨S100000x32, .f32⟩
  | .hbm, ⟨41, _⟩ => ⟨S1600000x1, .i32⟩
  | .hbm, ⟨42, _⟩ => ⟨S100000x32, .f32⟩
  | .hbm, ⟨43, _⟩ => ⟨S100000x32, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x32, .f32⟩
  | .hbm, ⟨53, _⟩ => ⟨S1600000x1, .f32⟩
  | .hbm, ⟨54, _⟩ => ⟨S1600000x32, .f32⟩
  | .hbm, ⟨55, _⟩ => ⟨S1600000x32, .f32⟩
  | .hbm, ⟨56, _⟩ => ⟨S_, .f32⟩
  | .hbm, ⟨57, _⟩ => ⟨S100000x32, .f32⟩
  | .hbm, ⟨58, _⟩ => ⟨S1600000x1, .i32⟩
  | .hbm, ⟨59, _⟩ => ⟨S100000x32, .f32⟩
  | .hbm, ⟨60, _⟩ => ⟨S100000x32, .f32⟩
  | .hbm, ⟨61, _⟩ => ⟨S_, .f32⟩
  | .hbm, ⟨62, _⟩ => ⟨S100000x32, .f32⟩
  | .hbm, ⟨63, _⟩ => ⟨S100000x32, .f32⟩
  | .hbm, ⟨64, _⟩ => ⟨S_, .i32⟩
  | .hbm, ⟨65, _⟩ => ⟨S1024, .i32⟩
  | .hbm, ⟨66, _⟩ => ⟨S1024, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S1024x1, .i32⟩
  | .hbm, ⟨72, _⟩ => ⟨S1024x32, .f32⟩
  | .hbm, ⟨73, _⟩ => ⟨S50000x32, .f32⟩
  | .hbm, ⟨74, _⟩ => ⟨S1024x50000, .f32⟩
  | .local _ .vmem, ⟨0, _⟩ => ⟨S64x32, .f32⟩
  | .local _ .vmem, ⟨1, _⟩ => ⟨S64x32, .f32⟩
  | .local _ .vmem, ⟨2, _⟩ => ⟨S50000x32, .f32⟩
  | .local _ .vmem, ⟨3, _⟩ => ⟨S64x50000, .f32⟩
  | .local _ .vmem, ⟨4, _⟩ => ⟨S64x50000, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_c_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50000x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x50000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S50000x32_S50000x32_S100000x32_d0 : Shape.Concatenates [S50000x32, S50000x32] S100000x32 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S_S1024 : S_.BroadcastsInDim S1024 (![] : Fin 0 → Fin S1024.rank)
  bcast_S1024_S1024x1_0 : S1024.BroadcastsInDim S1024x1 (![0] : Fin 1 → Fin S1024x1.rank)
  slices_S100000x32_S50000x32_50000_0 : S100000x32.Slices ![50000, 0] S50000x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S50000x32_S50000x32_0_0 : ∀ a, (![0, 0] : Fin 2 → Nat) a + S50000x32.size a ≤ S50000x32.size a
  h_S50000x32 : 0 < S50000x32.numel
  shapeCasts_S50000x32_S50000x32 : S50000x32.ShapeCasts S50000x32
  inb_S64x50000_S64x50000_0_0 : ∀ a, (![0, 0] : Fin 2 → Nat) a + S64x50000.size a ≤ S64x50000.size a
  h_S64x50000 : 0 < S64x50000.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S100000x32_S1024x1_S1024x32_1_0_n_n_0_1_132_wf : GatherDims.WF S100000x32 S1024x1 S1024x32 [1] [0] [] [0] [] 1 ![1, 32]
  dot_S64x32_S50000x32_S64x50000_1_1_0_0_n_n_wf : DotDims.WF S64x32 S50000x32 S64x50000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32.size a ≤ S1024x32.size a
  hwx0_0 : ∀ i : grid0.Coords, EltTy.bits .f32 = 32 ∨ (Rect.block (s := S1024x32) S64x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50000x32.size a ≤ S50000x32.size a
  hwx0_1 : ∀ i : grid0.Coords, EltTy.bits .f32 = 32 ∨ (Rect.block (s := S50000x32) S50000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x50000.size a ≤ S1024x50000.size a
  hwx0_2 : ∀ i : grid0.Coords, EltTy.bits .f32 = 32 ∨ (Rect.block (s := S1024x50000) S64x50000.size (cc0_transform_2 i) (hinb0_2 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S1024x1_S1024x32_1_0_n_n_0_1_132 : GatherDims S100000x32 S1024x1 S1024x32 where
  offsetDims := [1]
  collapsedSliceDims := [0]
  operandBatchingDims := []
  startIndicesBatchingDims := []
  startIndexMap := [0]
  indexVectorDim := 1
  sliceSizes := ![1, 32]
  wf := gather_S100000x32_S1024x1_S1024x32_1_0_n_n_0_1_132_wf
def dot_S64x32_S50000x32_S64x50000_1_1_0_0_n_n : DotDims S64x32 S50000x32 S64x50000 where
  lhsContracting := [1]
  rhsContracting := [1]
  lhsNonContracting := [0]
  rhsNonContracting := [0]
  lhsBatch := []
  rhsBatch := []
  wf := dot_S64x32_S50000x32_S64x50000_1_1_0_0_n_n_wf

abbrev win0_0 : Pipeline.Window sig grid0 :=
  Pipeline.Window.ofSpec (Memref.whole main_v55) S64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S50000x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S64x50000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024 : Shape := ⟨1, ![1024]⟩
abbrev S2x1600000 : Shape := ⟨2, ![2, 1600000]⟩
abbrev S1600000 : Shape := ⟨1, ![1600000]⟩
abbrev S50000x32 : Shape := ⟨2, ![50000, 32]⟩
abbrev S100000x32 : Shape := ⟨2, ![100000, 32]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S100000x1x32 : Shape := ⟨3, ![100000, 1, 32]⟩
abbrev S100000x4x32 : Shape := ⟨3, ![100000, 4, 32]⟩
abbrev S1024x1 : Shape := ⟨2, ![1024, 1]⟩
abbrev S1024x32 : Shape := ⟨2, ![1024, 32]⟩
abbrev S32x50000 : Shape := ⟨2, ![32, 50000]⟩
abbrev S1024x50000 : Shape := ⟨2, ![1024, 50000]⟩

abbrev nBuf : Space → Nat
  | .hbm => 89
  | .vmem => 0
  | .smem => 0
  | _ => 0

abbrev bufTy : (tb : Table) → Fin (tcTables nBuf tb) → BufTy
  | .hbm, ⟨0, _⟩ => ⟨S1024, .i32⟩
  | .hbm, ⟨1, _⟩ => ⟨S2x1600000, .i32⟩
  | .hbm, ⟨2, _⟩ => ⟨S1600000, .f32⟩
  | .hbm, ⟨3, _⟩ => ⟨S50000x32, .f32⟩
  | .hbm, ⟨4, _⟩ => ⟨S50000x32, .f32⟩
  | .hbm, ⟨5, _⟩ => ⟨S100000x32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x32, .f32⟩
  | .hbm, ⟨19, _⟩ => ⟨S1600000x1, .f32⟩
  | .hbm, ⟨20, _⟩ => ⟨S1600000x32, .f32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x32, .f32⟩
  | .hbm, ⟨35, _⟩ => ⟨S1600000x1, .f32⟩
  | .hbm, ⟨36, _⟩ => ⟨S1600000x32, .f32⟩
  | .hbm, ⟨37, _⟩ => ⟨S1600000x32, .f32⟩
  | .hbm, ⟨38, _⟩ => ⟨S_, .f32⟩
  | .hbm, ⟨39, _⟩ => ⟨S100000x32, .f32⟩
  | .hbm, ⟨40, _⟩ => ⟨S1600000x1, .i32⟩
  | .hbm, ⟨41, _⟩ => ⟨S100000x32, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x32, .f32⟩
  | .hbm, ⟨51, _⟩ => ⟨S1600000x1, .f32⟩
  | .hbm, ⟨52, _⟩ => ⟨S1600000x32, .f32⟩
  | .hbm, ⟨53, _⟩ => ⟨S1600000x32, .f32⟩
  | .hbm, ⟨54, _⟩ => ⟨S_, .f32⟩
  | .hbm, ⟨55, _⟩ => ⟨S100000x32, .f32⟩
  | .hbm, ⟨56, _⟩ => ⟨S1600000x1, .i32⟩
  | .hbm, ⟨57, _⟩ => ⟨S100000x32, .f32⟩
  | .hbm, ⟨58, _⟩ => ⟨S100000x1x32, .f32⟩
  | .hbm, ⟨59, _⟩ => ⟨S100000x1x32, .f32⟩
  | .hbm, ⟨60, _⟩ => ⟨S100000x1x32, .f32⟩
  | .hbm, ⟨61, _⟩ => ⟨S100000x1x32, .f32⟩
  | .hbm, ⟨62, _⟩ => ⟨S100000x4x32, .f32⟩
  | .hbm, ⟨63, _⟩ => ⟨S_, .f32⟩
  | .hbm, ⟨64, _⟩ => ⟨S100000x32, .f32⟩
  | .hbm, ⟨65, _⟩ => ⟨S_, .f32⟩
  | .hbm, ⟨66, _⟩ => ⟨S100000x32, .f32⟩
  | .hbm, ⟨67, _⟩ => ⟨S100000x32, .f32⟩
  | .hbm, ⟨68, _⟩ => ⟨S50000x32, .f32⟩
  | .hbm, ⟨69, _⟩ => ⟨S50000x32, .f32⟩
  | .hbm, ⟨70, _⟩ => ⟨S_, .i32⟩
  | .hbm, ⟨71, _⟩ => ⟨S1024, .i32⟩
  | .hbm, ⟨72, _⟩ => ⟨S1024, .i1⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S1024, .i32⟩
  | .hbm, ⟨77, _⟩ => ⟨S1024x1, .i32⟩
  | .hbm, ⟨78, _⟩ => ⟨S1024x32, .f32⟩
  | .hbm, ⟨79, _⟩ => ⟨S32x50000, .f32⟩
  | .hbm, ⟨80, _⟩ => ⟨S1024x50000, .f32⟩
  | .hbm, ⟨81, _⟩ => ⟨S1024x50000, .f32⟩
  | .hbm, ⟨82, _⟩ => ⟨S1024x50000, .f32⟩
  | .hbm, ⟨83, _⟩ => ⟨S_, .f32⟩
  | .hbm, ⟨84, _⟩ => ⟨S1024x50000, .f32⟩
  | .hbm, ⟨85, _⟩ => ⟨S1024x50000, .f32⟩
  | .hbm, ⟨86, _⟩ => ⟨S_, .f32⟩
  | .hbm, ⟨87, _⟩ => ⟨S1024x50000, .f32⟩
  | .hbm, ⟨88, _⟩ => ⟨S1024x50000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_c_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]

class Facts₀ : Prop where
  concatenates_S50000x32_S50000x32_S100000x32_d0 : Shape.Concatenates [S50000x32, S50000x32] S100000x32 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x32_S100000x1x32_0_2 : S100000x32.BroadcastsInDim S100000x1x32 (![0, 2] : Fin 2 → Fin S100000x1x32.rank)
  concatenates_S100000x1x32_S100000x1x32_S100000x1x32_S100000x1x32_S100000x4x32_d1 : Shape.Concatenates [S100000x1x32, S100000x1x32, S100000x1x32, S100000x1x32] S100000x4x32 1
  reducesTo_S100000x4x32_S100000x32_d1 : S100000x4x32.ReducesTo [1] S100000x32
  h_S_ : 0 < S_.numel
  slices_S100000x32_S50000x32_0_0 : S100000x32.Slices ![0, 0] S50000x32
  slices_S100000x32_S50000x32_50000_0 : S100000x32.Slices ![50000, 0] S50000x32
  bcast_S_S1024 : S_.BroadcastsInDim S1024 (![] : Fin 0 → Fin S1024.rank)
  bcast_S1024_S1024x1_0 : S1024.BroadcastsInDim S1024x1 (![0] : Fin 1 → Fin S1024x1.rank)
  transposes_S50000x32_S32x50000_1_0 : S50000x32.Transposes [1, 0] S32x50000
  bcast_S_S1024x50000 : S_.BroadcastsInDim S1024x50000 (![] : Fin 0 → Fin S1024x50000.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S50000x32_S1024x1_S1024x32_1_0_n_n_0_1_132_wf : GatherDims.WF S50000x32 S1024x1 S1024x32 [1] [0] [] [0] [] 1 ![1, 32]
  dot_S1024x32_S32x50000_S1024x50000_1_0_0_1_n_n_wf : DotDims.WF S1024x32 S32x50000 S1024x50000 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S50000x32_S1024x1_S1024x32_1_0_n_n_0_1_132 : GatherDims S50000x32 S1024x1 S1024x32 where
  offsetDims := [1]
  collapsedSliceDims := [0]
  operandBatchingDims := []
  startIndicesBatchingDims := []
  startIndexMap := [0]
  indexVectorDim := 1
  sliceSizes := ![1, 32]
  wf := gather_S50000x32_S1024x1_S1024x32_1_0_n_n_0_1_132_wf
def dot_S1024x32_S32x50000_S1024x50000_1_0_0_1_n_n : DotDims S1024x32 S32x50000 S1024x50000 where
  lhsContracting := [1]
  rhsContracting := [0]
  lhsNonContracting := [0]
  rhsNonContracting := [1]
  lhsBatch := []
  rhsBatch := []
  wf := dot_S1024x32_S32x50000_S1024x50000_1_0_0_1_n_n_wf

class Facts : Prop extends Facts₀ where

variable [Facts]
-- ==== Proof.KernelPayload.lean ====
/- One grid step of the rating kernel, entry by entry. The step loads a block of 64 user rows and all 50000 item rows
   (32 features each), multiplies the first by the transpose of the second into a zero accumulator and applies the
   logistic function: entry (p, q) of the block it stores is the logistic function of the dot product of user row p
   and item row q. -/
import proofs.«136475_g48077863911936_cont_8to1_c_1121_21_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Rating

open Cert.KernelIdeal Cert.KernelIdeal.Gen Idealize.ShloMosaic Idealize.ShloMosaic.ValueIdx

/-- The product's dimension numbers: both operands contract their feature axis (axis 1). -/
abbrev dotK : DotDims S64x32 S50000x32 S64x50000 := dot_S64x32_S50000x32_S64x50000_1_1_0_0_n_n

/-- At output entry (p, q) and feature k the left operand is read at (p, k): its row axis follows the output's row. -/
theorem lhs_at (p : Fin 64) (q : Fin 50000) (k : Fin 32) :
    dotK.lhsIdx (ix2 p q) ((contrEquiv1 dotK 32 rfl rfl).symm k) = ix2 p k := by
  have hk := contrEquiv1_symm_val dotK 32 rfl rfl k
  funext a
  refine Fin.ext ?_
  match a with
  | ⟨0, _⟩ =>
    show (dotK.lhsIdx (ix2 p q) _ 0).val = p.val
    unfold DotDims.lhsIdx
    rw [dif_neg (show ¬(0 : Fin S64x32.rank) ∈ dotK.lhsBatch by decide),
      dif_pos (show (0 : Fin S64x32.rank) ∈ dotK.lhsNonContracting by decide)]
    rfl
  | ⟨1, _⟩ => exact (dotK.lhsIdx_val_of_single rfl (ix2 p q) _).trans hk

/-- There the right operand is read at (q, k): its row axis follows the output's column. -/
theorem rhs_at (p : Fin 64) (q : Fin 50000) (k : Fin 32) :
    dotK.rhsIdx (ix2 p q) ((contrEquiv1 dotK 32 rfl rfl).symm k) = ix2 q k := by
  have hk := contrEquiv1_symm_val dotK 32 rfl rfl k
  funext a
  refine Fin.ext ?_
  match a with
  | ⟨0, _⟩ =>
    show (dotK.rhsIdx (ix2 p q) _ 0).val = q.val
    unfold DotDims.rhsIdx
    rw [dif_neg (show ¬(0 : Fin S50000x32.rank) ∈ dotK.rhsBatch by decide),
      dif_pos (show (0 : Fin S50000x32.rank) ∈ dotK.rhsNonContracting by decide)]
    rfl
  | ⟨1, _⟩ => exact (dotK.rhsIdx_val_of_single rfl (ix2 p q) _).trans hk

/-- Entry (p, q) of the block a step stores: the logistic function of the dot product over the 32 features of row p
    of its user block and row q of its item block. -/
theorem pay_apply (x0 : FVec Ideal S64x32 .f32) (x1 : FVec Ideal S50000x32 .f32) (p : Fin 64) (q : Fin 50000) :
    k0_pay1 (F := Ideal) x0 x1 (ix2 p q) = Ideal.logistic (∑ k : Fin 32, x0 (ix2 p k) * x1 (ix2 q k)) := by
  unfold k0_pay1
  show Ideal.logistic (FloatOps.matmul dotK none (shapeCast S64x32 x0 shapeCasts_S64x32_S64x32)
    (shapeCast S50000x32 x1 shapeCasts_S50000x32_S50000x32) (constant S64x50000 .f32 0x00000000#32) (ix2 p q)) = _
  refine congrArg Ideal.logistic ?_
  refine (Ideal.matmul_constant_zero_apply dotK none _ _ (ix2 p q)).trans ?_
  rw [← Equiv.sum_comp (contrEquiv1 dotK 32 rfl rfl).symm]
  refine Finset.sum_congr rfl fun k _ => ?_
  rw [lhs_at p q k, rhs_at p q k, shapeCast_self, shapeCast_self]

end Cert.KernelIdeal.Rating

end
-- ==== Proof.KernelBlocks.lean ====
/- From the blocks the grid steps write to the whole score table. The grid has 16 steps; step t reads user rows
   64·t … 64·t + 63 and every item row, and writes rows 64·t … 64·t + 63 of the result. The 16 row blocks tile the
   1024 rows, so the result is one function of the two tables the steps read: entry (r, c) is the logistic function of
   the dot product of user row r and item row c. -/
import proofs.«136475_g48077863911936_cont_8to1_c_1121_21_alg».proof.Proof.Gen.KernelIdeal.Value
import proofs.«136475_g48077863911936_cont_8to1_c_1121_21_alg».proof.Proof.KernelPayload

set_option maxRecDepth 16384

noncomputable section

namespace Cert.KernelIdeal.Rating

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The score table of a user table and an item table: entry (r, c) is the logistic function of the dot product, over
    the 32 features, of user row r and item row c. -/
def scores (U : FVec Ideal S1024x32 .f32) (I : FVec Ideal S50000x32 .f32) : FVec Ideal S1024x50000 .f32 :=
  fun i => Ideal.logistic (∑ k : Fin 32, U (ix2 (⟨(i 0).val, idx2_lt0 i⟩ : Fin 1024) k) * I (ix2 (⟨(i 1).val, idx2_lt1 i⟩ : Fin 50000) k))

theorem scores_apply (U : FVec Ideal S1024x32 .f32) (I : FVec Ideal S50000x32 .f32) (i : S1024x50000.Idx) :
    scores U I i = Ideal.logistic (∑ k : Fin 32, U (ix2 (⟨(i 0).val, idx2_lt0 i⟩ : Fin 1024) k) * I (ix2 (⟨(i 1).val, idx2_lt1 i⟩ : Fin 50000) k)) := rfl

/-- The same with the entry named by its row and column. -/
theorem scores_at (U : FVec Ideal S1024x32 .f32) (I : FVec Ideal S50000x32 .f32) (r : Fin 1024) (q : Fin 50000) :
    scores U I (ix2 r q) = Ideal.logistic (∑ k : Fin 32, U (ix2 r k) * I (ix2 q k)) := rfl

theorem hz : (![0, 0] : Fin 2 → Nat) = fun _ => 0 := funext fun a => by fin_cases a <;> rfl

/-- The stored block at any of its entries, the coordinates read off the entry. -/
theorem pay_at (x0 : FVec Ideal S64x32 .f32) (x1 : FVec Ideal S50000x32 .f32) (j : S64x50000.Idx) :
    k0_pay1 (F := Ideal) x0 x1 j
      = Ideal.logistic (∑ k : Fin 32, x0 (ix2 (⟨(j 0).val, idx2_lt0 j⟩ : Fin 64) k) * x1 (ix2 (⟨(j 1).val, idx2_lt1 j⟩ : Fin 50000) k)) := by
  obtain ⟨p, q, rfl⟩ : ∃ (p : Fin 64) (q : Fin 50000), j = ix2 p q := ⟨j 0, j 1, eq_ix2 j⟩
  exact pay_apply x0 x1 p q

/-- The windows' block indices over the 16 steps: the user window moves with the result's row block, the item window
    stays at its one block, and neither moves along the feature or item axis. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every one of the 16 row blocks of the result is some step's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- Row p of step t's user block is row 64·b + p of the user table, b the step's row block. -/
theorem ublk_apply (c : Dev nD) (t : Fin cfg0.N) (p : Fin 64) (k : Fin 32) (n : Fin 1024)
    (hn : n.val = win0_2.index t (0 : Fin 2) * 64 + p.val) :
    (iblk m c 0 t : FVec Ideal S64x32 .f32) (ix2 p k) = (V m c main_v55 : FVec Ideal S1024x32 .f32) (ix2 n k) := by
  obtain ⟨e0, e1, e2, e3, e4, e5⟩ := idx_facts t
  unfold iblk
  rw [View.read_apply]
  show V m c main_v55 _ = V m c main_v55 _
  refine congrArg (V m c main_v55) ?_
  funext a
  apply Fin.ext
  match a with
  | ⟨0, _⟩ => show win0_0.index t (0 : Fin 2) * 64 + 1 * p.val = n.val; rw [e0, hn]; omega
  | ⟨1, _⟩ => show win0_0.index t (1 : Fin 2) * 32 + 1 * k.val = k.val; rw [e1]; omega

/-- Step t's item block is the whole item table: its row q is the table's row q. -/
theorem iblk_apply (c : Dev nD) (t : Fin cfg0.N) (q : Fin 50000) (k : Fin 32) (n : Fin 50000) (hn : n.val = q.val) :
    (iblk m c 1 t : FVec Ideal S50000x32 .f32) (ix2 q k) = (V m c main_v56 : FVec Ideal S50000x32 .f32) (ix2 n k) := by
  obtain ⟨e0, e1, e2, e3, e4, e5⟩ := idx_facts t
  unfold iblk
  rw [View.read_apply]
  show V m c main_v56 _ = V m c main_v56 _
  refine congrArg (V m c main_v56) ?_
  funext a
  apply Fin.ext
  match a with
  | ⟨0, _⟩ => show win0_1.index t (0 : Fin 2) * 50000 + 1 * q.val = n.val; rw [e2, hn]; omega
  | ⟨1, _⟩ => show win0_1.index t (1 : Fin 2) * 32 + 1 * k.val = k.val; rw [e3]; omega

/-- What step t writes back is block t of the score table of the two tables as the region finds them: entry (p, q) of
    the stored block pairs user row 64·b + p with item row q, and that is the table's entry at the block's place. -/
theorem flushed_eq (c : Dev nD) (t : Fin cfg0.N) :
    (dats m 0 c).flushed 2 t = ((cfg0.win 2).blk t).view.read (Elt Ideal) (scores (V m c main_v55) (V m c main_v56)) := by
  show (cfg0.win 2).cut (grid0.coords t) ((dats m 0 c).after 2 t) = _
  rw [after0_2]
  unfold out0_2
  rw [View.canon_unit_zero hz]
  simp only [View.ld_unit_zero (S := S64x32) hz, View.ld_unit_zero (S := S50000x32) hz]
  obtain ⟨e0, e1, e2, e3, e4, e5⟩ := idx_facts t
  funext j
  rw [View.read_apply]
  simp only [cast_eq]
  refine (pay_at (iblk m c 0 t) (iblk m c 1 t) ((win0 2).xinj (grid0.coords t) j)).trans ?_
  rw [scores_apply]
  refine congrArg Ideal.logistic (Finset.sum_congr rfl fun k _ => ?_)
  have hj0 : (j 0).val < 64 := (j 0).isLt
  have hj1 : (j 1).val < 50000 := (j 1).isLt
  refine congr (congrArg HMul.hMul ?_) ?_
  · exact ublk_apply m c t _ k _ (by
      show win0_2.index t (0 : Fin 2) * 64 + 1 * (j 0).val = win0_2.index t (0 : Fin 2) * 64 + (j 0).val
      omega)
  · exact iblk_apply m c t _ k _ (by
      show win0_2.index t (1 : Fin 2) * 50000 + 1 * (j 1).val = (j 1).val
      rw [e4]; omega)

/-- An index of the result is in step t's block iff each coordinate is in the block's range on its axis. -/
theorem mem_blk (t : Fin cfg0.N) (i : S1024x50000.Idx) :
    i ∈ ((cfg0.win 2).blk t).view.set ↔ ∀ a : Fin 2, win0_2.index t a * S64x50000.size a ≤ (i a).val ∧ (i a).val < win0_2.index t a * S64x50000.size a + S64x50000.size a := by
  show i ∈ ((View.whole main_v57).slice (win0_2.rect t)).set ↔ _
  rw [View.set_slice_whole, Rect.mem_set_unit]
  exact Iff.rfl

/-- Every entry of the result lies in the block of the step that owns its row: row r belongs to step r / 64. -/
theorem cover (i : S1024x50000.Idx) : ∃ t : Fin cfg0.N, (cfg0.win 2).flush t = true ∧ i ∈ ((cfg0.win 2).blk t).view.set := by
  have hi0 : (i 0).val < 1024 := (i 0).isLt
  have hi1 : (i 1).val < 50000 := (i 1).isLt
  obtain ⟨t, ht⟩ := idx_onto ⟨(i 0).val / 64, by omega⟩
  have q0 : win0_2.index t (0 : Fin 2) = (i 0).val / 64 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 50000 ≤ (i 1).val ∧ (i 1).val < win0_2.index t (1 : Fin 2) * 50000 + 50000; omega

/-- The result array after the run: the score table of the two tables the region was entered with. -/
theorem final (c : Dev nD) : (dats m 0 c).arrAt 2 cfg0.N = scores (V m c main_v55) (V m c main_v56) :=
  (dats m 0 c).arrAt_eq_of_cover 2 (scores (V m c main_v55) (V m c main_v56)) (fun t _ => flushed_eq m c t) cover

/-- The run, read: the result at that score table, the arguments unchanged. -/
theorem run : θ_run defs (onTc (τ := τ) (main (F := Ideal))) ⟨m, fun _ => 0, ρ⟩ fun r => ∀ c : Dev nD,
      r.2.mem ((c : Thread nD τ).loc main_v57) = scores (V m c main_v55) (V m c main_v56)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Rating

end
-- ==== Proof.Consts.lean ====
/- The float constants the two programs spell, as the extended reals their bit patterns denote: the zero the
   sums start from, the one of the logistic function's quotient, the reference's divisor 4 and the kernel's factor 1/4. -/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `4.0`, the number of layer embeddings the reference averages, denotes the real `4`. -/
theorem ofBits_four : Ideal.ofBits .f32 0x40800000#32 = ((4 : ℝ) : EReal) := by
  simp [Ideal.ofBits, Ideal.ieee, -EReal.coe_mul]; norm_num

/-- The pattern of `0.25`, the kernel's factor, denotes the real `1/4`: a power of two, so nothing is rounded. -/
theorem ofBits_quarter : Ideal.ofBits .f32 0x3E800000#32 = ((1 / 4 : ℝ) : EReal) := by
  simp [Ideal.ofBits, Ideal.ieee, -EReal.coe_mul]; norm_num

end Cert.Consts

end
-- ==== Proof.LightSpec.lean ====
/- The mean of the four layer embeddings, entry by entry, and the one law that joins the two programs' spellings of
   it: the reference sums the four from zero and divides by 4, the kernel adds them one after the other and multiplies
   by 1/4. On the extended reals a quotient by the real 4 is the product with the real 1/4 whatever the dividend, an
   infinity included, so the two agree everywhere and no finiteness is used. -/
import Idealize.ShloMosaic.PureOps.Ideal
import Idealize.ShloMosaic.Lib.ValueIdx

noncomputable section

namespace Cert.Light

open Idealize.ShloMosaic

/-- A quarter of the sum of four arrays, entry by entry, the four added left to right. -/
def quarterSum {s : Shape} (e0 e1 e2 e3 : s.Idx → EReal) : s.Idx → EReal :=
  fun i => (e0 i + e1 i + e2 i + e3 i) * ((1 / 4 : ℝ) : EReal)

theorem quarterSum_apply {s : Shape} (e0 e1 e2 e3 : s.Idx → EReal) (i : s.Idx) :
    quarterSum e0 e1 e2 e3 i = (e0 i + e1 i + e2 i + e3 i) * ((1 / 4 : ℝ) : EReal) := rfl

/-- The sum from zero divided by 4 is the sum times 1/4. -/
theorem mean4 (a b c d : EReal) :
    Ideal.div (0 + (a + b + c + d)) ((4 : ℝ) : EReal) = (a + b + c + d) * ((1 / 4 : ℝ) : EReal) := by
  rw [zero_add, Ideal.div_coe (by norm_num : (4 : ℝ) ≠ 0)]

end Cert.Light

end
-- ==== Proof.LibTake.lean ====
/- General lemmas for reading a row gather at an index: 32-bit words in `0 … 9999` under the signed comparisons, a
   reduction by `and` of an array of ones, and `stablehlo.gather` of whole rows of a rank-2 table at a column of start
   indices — what `jnp.take(x, i, axis=0)` lowers to — read at a result index. -/
import Idealize.ShloMosaic.PureOps.Ideal
import Idealize.ShloMosaic.Lib.ValueIdx
import Idealize.ShloMosaic.Lib.ReduceAll

namespace Cert.LibTake

open Idealize.ShloMosaic Idealize.ShloMosaic.ValueIdx

/-! ## Words in `0 … 9999` -/

theorem zero_toInt : (0#32 : BitVec 32).toInt = 0 := by decide
theorem w9999_toInt : (9999#32 : BitVec 32).toInt = 9999 := by decide

/-- A word at most 9999 read unsigned reads the same signed. -/
theorem toInt_of_le {w : BitVec 32} (h : w.toNat ≤ 9999) : w.toInt = (w.toNat : Int) :=
  BitVec.toInt_eq_toNat_of_lt (by omega)

/-- Such a word is not below zero … -/
theorem cmpi_slt_zero {w : BitVec 32} (h : w.toNat ≤ 9999) : IntOp.cmpi .slt w 0#32 = 0#1 :=
  eq_zero_of_ne_one fun e => by
    have := IntOp.cmpi_slt.1 e
    rw [toInt_of_le h, zero_toInt] at this
    omega
/-- … is at least zero … -/
theorem cmpi_sge_zero {w : BitVec 32} (h : w.toNat ≤ 9999) : IntOp.cmpi .sge w 0#32 = 1#1 :=
  IntOp.cmpi_sge.2 (by rw [toInt_of_le h, zero_toInt]; omega)
/-- … and at most 9999, read signed. -/
theorem cmpi_sle_9999 {w : BitVec 32} (h : w.toNat ≤ 9999) : IntOp.cmpi .sle w 9999#32 = 1#1 :=
  IntOp.cmpi_sle.2 (by rw [toInt_of_le h, w9999_toInt]; omega)

/-- Read signed and made a natural number, it is its unsigned value. -/
theorem toInt_toNat_of_le {w : BitVec 32} (h : w.toNat ≤ 9999) : w.toInt.toNat = w.toNat := by
  rw [toInt_of_le h]; rfl

/-! ## A reduction by `and` of ones -/

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_ones x hx _

/-! ## Whole rows of a rank-2 table gathered at a column of start indices -/

section Rows
variable {α : Type}

/-- `jnp.take(x, i, axis=0)`'s dimension numbers for a table `[R, W]`, start indices `[N, 1]` and a result `[N, W]`:
    offset axis 1, collapsed axis 0, the start index naming axis 0, slices of one row. -/
abbrev rowsDims (R N W : Nat)
    (wf : GatherDims.WF ⟨2, ![R, W]⟩ ⟨2, ![N, 1]⟩ ⟨2, ![N, W]⟩ [1] [0] [] [0] [] 1 ![1, W]) :
    GatherDims ⟨2, ![R, W]⟩ ⟨2, ![N, 1]⟩ ⟨2, ![N, W]⟩ where
  offsetDims := [1]
  collapsedSliceDims := [0]
  operandBatchingDims := []
  startIndicesBatchingDims := []
  startIndexMap := [0]
  indexVectorDim := 1
  sliceSizes := ![1, W]
  wf := wf

/-- The gather read at `(r, c)`: the table at column `c` of the row the start index `idx[r, 0]` names, read signed and
    clamped into `[0, R − 1]`. -/
theorem gather_rows_apply {R N W w : Nat} (hR : 0 < R)
    (wf : GatherDims.WF ⟨2, ![R, W]⟩ ⟨2, ![N, 1]⟩ ⟨2, ![N, W]⟩ [1] [0] [] [0] [] 1 ![1, W])
    (x : (⟨2, ![R, W]⟩ : Shape).Idx → α) (idx : IVec ⟨2, ![N, 1]⟩ w) (r : Fin N) (c : Fin W) :
    Host.gather (rowsDims R N W wf) x idx (ix2 r c)
      = x (ix2 ⟨min (idx (ix2 r ⟨0, Nat.one_pos⟩)).toInt.toNat (R - 1), by omega⟩ c) := by
  have hsi : ∀ q, (rowsDims R N W wf).siIdx (ix2 r c) q = ix2 r ⟨0, Nat.one_pos⟩ := by
    intro q
    funext b; refine Fin.ext ?_
    match b with
    | ⟨0, _⟩ => rfl
    | ⟨1, _⟩ => exact Nat.lt_one_iff.mp q.isLt
  unfold Host.gather
  congr 1
  funext a
  refine Fin.ext ?_
  show (rowsDims R N W wf).start (ix2 r c) idx a + (rowsDims R N W wf).batchCoord (ix2 r c) a
    + (rowsDims R N W wf).offCoord (ix2 r c) a = _
  rw [GatherDims.batchCoord_eq_zero _ _ _ List.not_mem_nil]
  match a with
  | ⟨0, h0⟩ =>
    have hm : (⟨0, h0⟩ : Fin (⟨2, ![R, W]⟩ : Shape).rank) ∈ (rowsDims R N W wf).startIndexMap :=
      List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hm, hsi]
    rfl
  | ⟨1, _⟩ =>
    unfold GatherDims.start
    rw [dif_neg (fun h => absurd (congrArg Fin.val (List.mem_singleton.mp h) : (1 : ℕ) = 0) Nat.one_ne_zero)]
    simp only [Nat.zero_add]
    rfl

end Rows

end Cert.LibTake
-- ==== Proof.UsersInRange.lean ====
/- What the precondition says of the user ids. Its last conjunct compares every id with 0 and with 50000 as signed
   words and reduces the comparisons with `and`: when the precondition holds, every id names a row of the user table,
   0 ≤ id < 50000. -/
import proofs.«136475_g48077863911936_cont_8to1_c_1121_21_alg».proof.Pre_finite_inputs
import proofs.«136475_g48077863911936_cont_8to1_c_1121_21_alg».proof.Proof.Gen.Pre_finite_inputs
import Idealize.ShloMosaic.Lib.ReduceAll
import Idealize.ShloMosaic.Lib.ValueIdx
import Idealize.ShloMosaic.Lib.Affine

noncomputable section

namespace Cert.Pre_finite_inputs.Range

open Cert.Pre_finite_inputs Idealize.ShloMosaic Idealize.ShloMosaic.ValueIdx

instance : Subsingleton S_.Idx := ⟨fun a b => funext fun d => d.elim0⟩

theorem zero_toInt : (0#32 : BitVec 32).toInt = 0 := by decide
theorem w50000_toInt : (50000#32 : BitVec 32).toInt = 50000 := by decide

/-- Under the precondition every user id, read as a signed word, is at least 0 and below 50000. -/
theorem users_in_range {F : FTy → Type} [FloatOps F] (a0 : IVec S1024 32) (a1 : IVec S2x1600000 32)
    (a2 : FVec F S1600000 .f32) (a3 a4 : FVec F S50000x32 .f32)
    (h : fn (F := F) a0 a1 a2 a3 a4 = fun _ => 1#1) (i : S1024.Idx) :
    0 ≤ (a0 i).toInt ∧ (a0 i).toInt < 50000 := by
  have e := congrFun h ix0
  unfold fn at e
  dsimp only at e
  unfold fn_part1 at e
  dsimp only at e
  have e1 : IntOp.andi _ (Host.reduce IntOp.andi (andi (cmpi .sge a0 _) (cmpi .slt a0 _)) (constantI S_ 1 1#1) _ _ ix0) = 1#1 := e
  have e2 := Host.reduce_andi_all _ _ _ _ _ (IntOp.andi_eq_one.mp e1).2 i
  have e3 : IntOp.andi (IntOp.cmpi .sge (a0 i) 0#32) (IntOp.cmpi .slt (a0 i) 50000#32) = 1#1 := e2
  obtain ⟨g0, g1⟩ := IntOp.andi_eq_one.mp e3
  have g0' := IntOp.cmpi_sge.mp g0
  have g1' := IntOp.cmpi_slt.mp g1
  rw [zero_toInt] at g0'
  rw [w50000_toInt] at g1'
  exact ⟨g0', g1'⟩

/-! ## An id in range is a row number

Both programs first add the table's row count to a negative index, then the gather clamps the index into the table.
Neither step changes an id in `0 … 49999`, whichever of the two tables (100000 or 50000 rows) it is read against. -/

/-- An id that is not negative passes the negative-index correction unchanged, whatever would have been added. -/
theorem select_neg_id {w : BitVec 32} (h0 : 0 ≤ w.toInt) (K : BitVec 32) :
    Scalar.select (IntOp.cmpi .slt w 0#32) (IntOp.addi w K) w = w := by
  have hz : IntOp.cmpi .slt w 0#32 = 0#1 := eq_zero_of_ne_one fun e => by
    have := IntOp.cmpi_slt.mp e
    rw [zero_toInt] at this
    omega
  rw [hz, select_zero]

/-- Clamping into a table of at least 50000 rows leaves it unchanged as well. -/
theorem clamp_id {w : BitVec 32} (h0 : 0 ≤ w.toInt) (h1 : w.toInt < 50000) (R : Nat) (hR : 50000 ≤ R) :
    min w.toInt.toNat (R - 1) = w.toInt.toNat := by
  omega

/-- The row it names. -/
theorem row_lt {w : BitVec 32} (h0 : 0 ≤ w.toInt) (h1 : w.toInt < 50000) : w.toInt.toNat < 50000 := by
  omega

end Cert.Pre_finite_inputs.Range

end
-- ==== Proof.RowGather.lean ====
/- The user rows both programs gather. Each program corrects a negative id by the row count of the table it gathers
   from (100000 rows in the kernel, 50000 in the reference) and the gather clamps the id into that table. For an id in
   0 … 49999 neither step does anything, in either table: row r of the gathered array is row id[r] of the table. -/
import proofs.«136475_g48077863911936_cont_8to1_c_1121_21_alg».proof.Proof.LibTake
import proofs.«136475_g48077863911936_cont_8to1_c_1121_21_alg».proof.Proof.UsersInRange
import Idealize.ShloMosaic.Lib.Pipeline.Value

noncomputable section

namespace Cert.RowGather

open Idealize.ShloMosaic Idealize.ShloMosaic.ValueIdx

variable {α : Type}

/-- The start index of result row r — the id after the negative-index correction by K, as a one-column array — is the
    id itself when the id is not negative. -/
theorem start_at (hb1 : (⟨1, ![1024]⟩ : Shape).BroadcastsInDim ⟨2, ![1024, 1]⟩ (![0] : Fin 1 → Fin 2))
    (hb0 : (⟨0, ![]⟩ : Shape).BroadcastsInDim ⟨1, ![1024]⟩ (![] : Fin 0 → Fin 1))
    (K : BitVec 32) (x0 : IVec ⟨1, ![1024]⟩ 32) (r : Fin 1024) (h0 : 0 ≤ (x0 (ix1 r)).toInt) :
    (broadcastInDim ⟨2, ![1024, 1]⟩ (![0] : Fin 1 → Fin 2) hb1
        (select (cmpi .slt x0 (broadcastInDim ⟨1, ![1024]⟩ (![] : Fin 0 → Fin 1) hb0 (constantI ⟨0, ![]⟩ 32 0#32)))
          (addi x0 (broadcastInDim ⟨1, ![1024]⟩ (![] : Fin 0 → Fin 1) hb0 (constantI ⟨0, ![]⟩ 32 K))) x0)
      : IVec ⟨2, ![1024, 1]⟩ 32) (ix2 r ⟨0, Nat.one_pos⟩) = x0 (ix1 r) := by
  rw [broadcastInDim_apply _ hb1 _ (ix2 r ⟨0, Nat.one_pos⟩) (ix1 r) (fun a => match a with
    | ⟨0, _⟩ => by show r.val = if (1024 : Nat) = 1 then 0 else r.val; rw [if_neg (by decide)])]
  show Scalar.select (IntOp.cmpi .slt (x0 (ix1 r)) 0#32) (IntOp.addi (x0 (ix1 r)) K) (x0 (ix1 r)) = _
  exact Cert.Pre_finite_inputs.Range.select_neg_id h0 K

/-- Rows of a table of R ≥ 50000 rows gathered at ids in 0 … 49999: result row r is table row id[r]. -/
theorem gather_users {R : Nat} (hR : 50000 ≤ R)
    (wf : GatherDims.WF ⟨2, ![R, 32]⟩ ⟨2, ![1024, 1]⟩ ⟨2, ![1024, 32]⟩ [1] [0] [] [0] [] 1 ![1, 32])
    (hb1 : (⟨1, ![1024]⟩ : Shape).BroadcastsInDim ⟨2, ![1024, 1]⟩ (![0] : Fin 1 → Fin 2))
    (hb0 : (⟨0, ![]⟩ : Shape).BroadcastsInDim ⟨1, ![1024]⟩ (![] : Fin 0 → Fin 1))
    (K : BitVec 32) (x0 : IVec ⟨1, ![1024]⟩ 32) (L : (⟨2, ![R, 32]⟩ : Shape).Idx → α) (r : Fin 1024) (k : Fin 32)
    (h0 : 0 ≤ (x0 (ix1 r)).toInt) (h1 : (x0 (ix1 r)).toInt < 50000) :
    Host.gather (Cert.LibTake.rowsDims R 1024 32 wf) L
        (broadcastInDim ⟨2, ![1024, 1]⟩ (![0] : Fin 1 → Fin 2) hb1
          (select (cmpi .slt x0 (broadcastInDim ⟨1, ![1024]⟩ (![] : Fin 0 → Fin 1) hb0 (constantI ⟨0, ![]⟩ 32 0#32)))
            (addi x0 (broadcastInDim ⟨1, ![1024]⟩ (![] : Fin 0 → Fin 1) hb0 (constantI ⟨0, ![]⟩ 32 K))) x0)) (ix2 r k)
      = L (ix2 ⟨(x0 (ix1 r)).toInt.toNat, by omega⟩ k) := by
  rw [Cert.LibTake.gather_rows_apply (by omega) wf L _ r k]
  refine congrArg L ?_
  funext a
  refine Fin.ext ?_
  match a with
  | ⟨0, _⟩ =>
    show min _ (R - 1) = (x0 (ix1 r)).toInt.toNat
    rw [start_at hb1 hb0 K x0 r h0]
    exact Cert.Pre_finite_inputs.Range.clamp_id h0 h1 R hR
  | ⟨1, _⟩ => rfl

end Cert.RowGather

end
-- ==== Proof.KernelHost.lean ====
/- The two tables the kernel hands to its rating call, as the host operations before the call compute them. The host
   side concatenates the user and item embeddings, propagates them three times along the edges (a gather of source
   rows, a product with the edge weights, a sum into the destination rows), adds the four embeddings one after the
   other and multiplies by 0.25. The user table is that mean gathered at the user ids, the item table its rows
   50000 … 99999. The three propagation layers are the same operations on the same arguments as the reference's, so
   they are named by the reference's stages and never opened. -/
import proofs.«136475_g48077863911936_cont_8to1_c_1121_21_alg».proof.Proof.Gen.KernelIdeal.Frame
import proofs.«136475_g48077863911936_cont_8to1_c_1121_21_alg».proof.Proof.RefReadP
import proofs.«136475_g48077863911936_cont_8to1_c_1121_21_alg».proof.Proof.Consts
import proofs.«136475_g48077863911936_cont_8to1_c_1121_21_alg».proof.Proof.LightSpec
import proofs.«136475_g48077863911936_cont_8to1_c_1121_21_alg».proof.Proof.RowGather

set_option maxRecDepth 16384

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

/-- The kernel's mean of four layer embeddings: their sum, added left to right, times the constant 0.25. -/
def lightK (e0 e1 e2 e3 : FVec Ideal S100000x32 .f32) : FVec Ideal S100000x32 .f32 :=
  mulf (addf (addf (addf e0 e1) e2) e3)
    (broadcastInDim S100000x32 ![] bcast_S_S100000x32 (constant (F := Ideal) S_ .f32 0x3E800000#32))

/-- The kernel's user table: rows of the mean over ALL 100000 nodes gathered at the user ids, a negative id first
    moved up by 100000. -/
def userRowsK (x0 : IVec S1024 32) (L : FVec Ideal S100000x32 .f32) : FVec Ideal S1024x32 .f32 :=
  Host.gather gather_S100000x32_S1024x1_S1024x32_1_0_n_n_0_1_132 L
    (broadcastInDim S1024x1 ![0] bcast_S1024_S1024x1_0
      (select (cmpi .slt x0 (broadcastInDim S1024 ![] bcast_S_S1024 (constantI S_ 32 0#32)))
        (addi x0 (broadcastInDim S1024 ![] bcast_S_S1024 (constantI S_ 32 100000#32))) x0))

/-- The kernel's item table: rows 50000 … 99999 of the mean. -/
def itemRowsK (L : FVec Ideal S100000x32 .f32) : FVec Ideal S50000x32 .f32 :=
  extractStridedSlice S50000x32 ![50000, 0] L slices_S100000x32_S50000x32_50000_0

/-- The kernel's mean at an entry is a quarter of the four embeddings' sum there: 0.25 is exactly 1/4. -/
theorem lightK_apply (e0 e1 e2 e3 : FVec Ideal S100000x32 .f32) (i : S100000x32.Idx) :
    lightK e0 e1 e2 e3 i = Cert.Light.quarterSum (s := S100000x32) e0 e1 e2 e3 i := by
  unfold lightK
  show (e0 i + e1 i + e2 i + e3 i) * Ideal.ofBits .f32 0x3E800000#32 = _
  rw [Cert.Consts.ofBits_quarter]
  rfl

/-- Row r of the user table is row id[r] of the mean when the id is a user's, 0 ≤ id[r] < 50000. -/
theorem userRowsK_apply (x0 : IVec S1024 32) (L : FVec Ideal S100000x32 .f32) (r : Fin 1024) (k : Fin 32)
    (h0 : 0 ≤ (x0 (ix1 r)).toInt) (h1 : (x0 (ix1 r)).toInt < 50000) :
    userRowsK x0 L (ix2 r k) = L (ix2 ⟨(x0 (ix1 r)).toInt.toNat, by omega⟩ k) :=
  Cert.RowGather.gather_users (R := 100000) (by decide) gather_S100000x32_S1024x1_S1024x32_1_0_n_n_0_1_132_wf
    bcast_S1024_S1024x1_0 bcast_S_S1024 100000#32 x0 L r k h0 h1

/-- Row q of the item table is row 50000 + q of the mean. -/
theorem itemRowsK_apply (L : FVec Ideal S100000x32 .f32) (q : Fin 50000) (k : Fin 32) :
    itemRowsK L (ix2 q k) = L (ix2 ⟨50000 + q.val, by omega⟩ k) := by
  unfold itemRowsK
  exact extractStridedSlice_apply ![50000, 0] L slices_S100000x32_S50000x32_50000_0 (ix2 q k) _ (fun a => match a with
    | ⟨0, _⟩ => rfl
    | ⟨1, _⟩ => by show k.val = 0 + k.val; omega)

variable (m : (ℓ : Loc nD τ sig) → Buf (Elt Ideal) ℓ)

/-- The user table as the rating call finds it. -/
theorem V55_eq (c : Dev nD) :
    (V m c main_v55 : FVec Ideal S1024x32 .f32)
      = userRowsK (m ((c.tc : Thread nD τ).loc main_arg0)) (lightK
          (Cert.ReferenceIdeal.ReadP.val_main_v0 (F := Ideal) (m ((c.tc : Thread nD τ).loc main_arg3)) (m ((c.tc : Thread nD τ).loc main_arg4)))
          (Cert.ReferenceIdeal.ReadP.val_main_v17 (F := Ideal) (m ((c.tc : Thread nD τ).loc main_arg1)) (m ((c.tc : Thread nD τ).loc main_arg2)) (m ((c.tc : Thread nD τ).loc main_arg3)) (m ((c.tc : Thread nD τ).loc main_arg4)))
          (Cert.ReferenceIdeal.ReadP.val_main_v30 (F := Ideal) (m ((c.tc : Thread nD τ).loc main_arg1)) (m ((c.tc : Thread nD τ).loc main_arg2)) (m ((c.tc : Thread nD τ).loc main_arg3)) (m ((c.tc : Thread nD τ).loc main_arg4)))
          (Cert.ReferenceIdeal.ReadP.val_main_v43 (F := Ideal) (m ((c.tc : Thread nD τ).loc main_arg1)) (m ((c.tc : Thread nD τ).loc main_arg2)) (m ((c.tc : Thread nD τ).loc main_arg3)) (m ((c.tc : Thread nD τ).loc main_arg4)))) := by
  dsimp only [Gen.V, Gen.hostOps0]
  after_results_simp
  rfl

/-- The item table as the rating call finds it. -/
theorem V56_eq (c : Dev nD) :
    (V m c main_v56 : FVec Ideal S50000x32 .f32)
      = itemRowsK (lightK
          (Cert.ReferenceIdeal.ReadP.val_main_v0 (F := Ideal) (m ((c.tc : Thread nD τ).loc main_arg3)) (m ((c.tc : Thread nD τ).loc main_arg4)))
          (Cert.ReferenceIdeal.ReadP.val_main_v17 (F := Ideal) (m ((c.tc : Thread nD τ).loc main_arg1)) (m ((c.tc : Thread nD τ).loc main_arg2)) (m ((c.tc : Thread nD τ).loc main_arg3)) (m ((c.tc : Thread nD τ).loc main_arg4)))
          (Cert.ReferenceIdeal.ReadP.val_main_v30 (F := Ideal) (m ((c.tc : Thread nD τ).loc main_arg1)) (m ((c.tc : Thread nD τ).loc main_arg2)) (m ((c.tc : Thread nD τ).loc main_arg3)) (m ((c.tc : Thread nD τ).loc main_arg4)))
          (Cert.ReferenceIdeal.ReadP.val_main_v43 (F := Ideal) (m ((c.tc : Thread nD τ).loc main_arg1)) (m ((c.tc : Thread nD τ).loc main_arg2)) (m ((c.tc : Thread nD τ).loc main_arg3)) (m ((c.tc : Thread nD τ).loc main_arg4)))) := by
  dsimp only [Gen.V, Gen.hostOps0]
  after_results_simp
  rfl

end Cert.KernelIdeal.Host

end
-- ==== Proof.RefScores.lean ====
/- The reference's result, entry by entry: it multiplies the gathered user rows by the transposed item rows and applies
   1 / (1 + exp (-x)). Entry (r, q) is the logistic function of the dot product over the 32 features of gathered user
   row r and item row q — on the extended reals the logistic function is by definition that quotient. -/
import proofs.«136475_g48077863911936_cont_8to1_c_1121_21_alg».proof.Proof.RefReadP
import proofs.«136475_g48077863911936_cont_8to1_c_1121_21_alg».proof.Proof.Consts

noncomputable section

namespace Cert.ReferenceIdeal.Scores

open Cert.ReferenceIdeal Cert.ReferenceIdeal.Gen Cert.ReferenceIdeal.ReadP Idealize.ShloMosaic Idealize.ShloMosaic.ValueIdx

variable (x0 : (⟨S1024, .i32⟩ : BufTy).Contents (Elt Ideal)) (x1 : (⟨S2x1600000, .i32⟩ : BufTy).Contents (Elt Ideal)) (x2 : (⟨S1600000, .f32⟩ : BufTy).Contents (Elt Ideal)) (x3 x4 : (⟨S50000x32, .f32⟩ : BufTy).Contents (Elt Ideal))

/-- The left operand's entry for output (r, q) and feature k is (r, k). -/
theorem lidx_at (r : Fin 1024) (q : Fin 50000) (k : Fin 32) : lidx_main_v62 (ix2 r q) k = ix2 r k :=
  funext fun a => Fin.ext (by match a with | ⟨0, _⟩ => rfl | ⟨1, _⟩ => rfl)

/-- The right operand is the item table transposed: its entry for output (r, q) and feature k is the table's (q, k). -/
theorem ridx_at (r : Fin 1024) (q : Fin 50000) (k : Fin 32) : idx_main_v61 (ridx_main_v62 (ix2 r q) k) = ix2 q k :=
  funext fun a => Fin.ext (by match a with | ⟨0, _⟩ => rfl | ⟨1, _⟩ => rfl)

/-- The reference's result at (r, q). -/
theorem result_apply (r : Fin 1024) (q : Fin 50000) :
    val_main_v68 (F := Ideal) x0 x1 x2 x3 x4 (ix2 r q)
      = Ideal.logistic (∑ k : Fin 32, val_main_v60 (F := Ideal) x0 x1 x2 x3 x4 (ix2 r k) * val_main_v53 (F := Ideal) x1 x2 x3 x4 (ix2 q k)) := by
  rw [val_main_v68_apply, val_main_v67_apply, val_main_cst_12_apply, val_main_v66_apply, val_main_v65_apply, val_main_cst_11_apply,
    val_main_v64_apply, val_main_v63_apply, val_main_v62_apply]
  simp only [val_main_v61_apply, lidx_at, ridx_at, Ideal.hostDivf_def, Ideal.hostUnary_exp_def, Ideal.hostNegf_def, Ideal.negf_def,
    Ideal.addf_def, Ideal.ofBits_def, Cert.Consts.ofBits_one]
  rfl

end Cert.ReferenceIdeal.Scores

end
-- ==== Proof.RefLight.lean ====
/- The reference's mean of the four layer embeddings, entry by entry. The reference stacks the start embedding and the
   three propagated ones along a new middle axis, sums that axis from zero and divides by 4: at node n and feature k
   that is a quarter of the four embeddings' entries at (n, k) added up. The propagation layers themselves are never
   opened: both programs apply the same operations to the same arguments there. -/
import proofs.«136475_g48077863911936_cont_8to1_c_1121_21_alg».proof.Proof.RefReadP
import proofs.«136475_g48077863911936_cont_8to1_c_1121_21_alg».proof.Proof.Consts
import proofs.«136475_g48077863911936_cont_8to1_c_1121_21_alg».proof.Proof.LightSpec

noncomputable section

namespace Cert.ReferenceIdeal.Light

open Cert.ReferenceIdeal Cert.ReferenceIdeal.Gen Cert.ReferenceIdeal.ReadP Idealize.ShloMosaic Idealize.ShloMosaic.ValueIdx

variable (x1 : (⟨S2x1600000, .i32⟩ : BufTy).Contents (Elt Ideal)) (x2 : (⟨S1600000, .f32⟩ : BufTy).Contents (Elt Ideal)) (x3 x4 : (⟨S50000x32, .f32⟩ : BufTy).Contents (Elt Ideal))

/-- The index of entry i in one layer's copy, whose stacking axis has the one position 0. -/
def unitIdx (i : S100000x32.Idx) : S100000x1x32.Idx := fun a => match a with
  | ⟨0, _⟩ => ⟨(i 0).val, (i 0).isLt⟩
  | ⟨1, _⟩ => ⟨0, Nat.one_pos⟩
  | ⟨2, _⟩ => ⟨(i 1).val, (i 1).isLt⟩

/-- Off the stacking axis it has the coordinates of the stacked index at any position j. -/
theorem unitIdx_off (i : S100000x32.Idx) (j : Fin 4) (b : Fin S100000x1x32.rank)
    (hb : b.cast (rfl : S100000x1x32.rank = S100000x4x32.rank) ≠ (1 : Fin S100000x4x32.rank)) :
    (unitIdx i b).val = (idx_main_v49 i j (b.cast rfl)).val := by
  match b with
  | ⟨0, _⟩ => rfl
  | ⟨1, _⟩ => exact absurd rfl hb
  | ⟨2, _⟩ => rfl

/-- Layer 0's copy in the stack: position 0 along the stacking axis reads the start embedding at the same node and feature. -/
theorem stack0 (i : S100000x32.Idx) :
    val_main_v48 (F := Ideal) x1 x2 x3 x4 (idx_main_v49 i 0) = val_main_v0 (F := Ideal) x3 x4 i := by
  unfold val_main_v48
  refine (concatenate_apply_piece (1 : Fin S100000x4x32.rank) _ _ (idx_main_v49 i 0) 0 (by show (0 : ℕ) < 4; decide) S100000x1x32
    (val_main_v44 (F := Ideal) x3 x4) rfl rfl 0 rfl (unitIdx i) (unitIdx_off i 0) rfl).trans ?_
  rw [val_main_v44_apply]
  exact congrArg _ (funext fun a => Fin.ext (by match a with | ⟨0, _⟩ => rfl | ⟨1, _⟩ => rfl))

/-- Layer 1's copy in the stack: position 1 along the stacking axis reads the first propagated embedding at the same node and feature. -/
theorem stack1 (i : S100000x32.Idx) :
    val_main_v48 (F := Ideal) x1 x2 x3 x4 (idx_main_v49 i 1) = val_main_v17 (F := Ideal) x1 x2 x3 x4 i := by
  unfold val_main_v48
  refine (concatenate_apply_piece (1 : Fin S100000x4x32.rank) _ _ (idx_main_v49 i 1) 1 (by show (1 : ℕ) < 4; decide) S100000x1x32
    (val_main_v45 (F := Ideal) x1 x2 x3 x4) rfl rfl 1 rfl (unitIdx i) (unitIdx_off i 1) rfl).trans ?_
  rw [val_main_v45_apply]
  exact congrArg _ (funext fun a => Fin.ext (by match a with | ⟨0, _⟩ => rfl | ⟨1, _⟩ => rfl))

/-- Layer 2's copy in the stack: position 2 along the stacking axis reads the second propagated embedding at the same node and feature. -/
theorem stack2 (i : S100000x32.Idx) :
    val_main_v48 (F := Ideal) x1 x2 x3 x4 (idx_main_v49 i 2) = val_main_v30 (F := Ideal) x1 x2 x3 x4 i := by
  unfold val_main_v48
  refine (concatenate_apply_piece (1 : Fin S100000x4x32.rank) _ _ (idx_main_v49 i 2) 2 (by show (2 : ℕ) < 4; decide) S100000x1x32
    (val_main_v46 (F := Ideal) x1 x2 x3 x4) rfl rfl 2 rfl (unitIdx i) (unitIdx_off i 2) rfl).trans ?_
  rw [val_main_v46_apply]
  exact congrArg _ (funext fun a => Fin.ext (by match a with | ⟨0, _⟩ => rfl | ⟨1, _⟩ => rfl))

/-- Layer 3's copy in the stack: position 3 along the stacking axis reads the third propagated embedding at the same node and feature. -/
theorem stack3 (i : S100000x32.Idx) :
    val_main_v48 (F := Ideal) x1 x2 x3 x4 (idx_main_v49 i 3) = val_main_v43 (F := Ideal) x1 x2 x3 x4 i := by
  unfold val_main_v48
  refine (concatenate_apply_piece (1 : Fin S100000x4x32.rank) _ _ (idx_main_v49 i 3) 3 (by show (3 : ℕ) < 4; decide) S100000x1x32
    (val_main_v47 (F := Ideal) x1 x2 x3 x4) rfl rfl 3 rfl (unitIdx i) (unitIdx_off i 3) rfl).trans ?_
  rw [val_main_v47_apply]
  exact congrArg _ (funext fun a => Fin.ext (by match a with | ⟨0, _⟩ => rfl | ⟨1, _⟩ => rfl))

/-- The reference's mean at node n and feature k: a quarter of the four embeddings' entries there, added in layer order. -/
theorem light_apply (n : Fin 100000) (k : Fin 32) :
    val_main_v51 (F := Ideal) x1 x2 x3 x4 (ix2 n k)
      = Cert.Light.quarterSum (s := S100000x32) (val_main_v0 (F := Ideal) x3 x4) (val_main_v17 (F := Ideal) x1 x2 x3 x4)
          (val_main_v30 (F := Ideal) x1 x2 x3 x4) (val_main_v43 (F := Ideal) x1 x2 x3 x4) (ix2 n k) := by
  rw [val_main_v51_apply, val_main_v49_apply, val_main_v50_apply, val_main_cst_8_apply, val_main_cst_7_apply, Fin.sum_univ_four,
    stack0, stack1, stack2, stack3, Cert.Light.quarterSum_apply]
  simp only [Ideal.hostDivf_def, Ideal.ofBits_def, Cert.Consts.ofBits_four, Cert.Consts.ofBits_zero]
  exact Cert.Light.mean4 _ _ _ _

end Cert.ReferenceIdeal.Light

end
-- ==== Proof.RefRows.lean ====
/- The reference's two tables, entry by entry. It cuts the mean into user rows 0 … 49999 and item rows
   50000 … 99999, and gathers the user rows at the user ids, a negative id first moved up by 50000. For an id that is a
   user's, row r of the gathered table is row id[r] of the mean; row q of the item table is row 50000 + q of the mean. -/
import proofs.«136475_g48077863911936_cont_8to1_c_1121_21_alg».proof.Proof.RefLight
import proofs.«136475_g48077863911936_cont_8to1_c_1121_21_alg».proof.Proof.RowGather

noncomputable section

namespace Cert.ReferenceIdeal.Rows

open Cert.ReferenceIdeal Cert.ReferenceIdeal.Gen Cert.ReferenceIdeal.ReadP
open Idealize.ShloMosaic Idealize.ShloMosaic.ValueIdx

variable (x0 : (⟨S1024, .i32⟩ : BufTy).Contents (Elt Ideal)) (x1 : (⟨S2x1600000, .i32⟩ : BufTy).Contents (Elt Ideal)) (x2 : (⟨S1600000, .f32⟩ : BufTy).Contents (Elt Ideal)) (x3 x4 : (⟨S50000x32, .f32⟩ : BufTy).Contents (Elt Ideal))

/-- Gathered user row r at feature k, for an id in range: the mean at node id[r]. -/
theorem users_apply (r : Fin 1024) (k : Fin 32) (h0 : 0 ≤ (x0 (ix1 r)).toInt) (h1 : (x0 (ix1 r)).toInt < 50000) :
    val_main_v60 (F := Ideal) x0 x1 x2 x3 x4 (ix2 r k)
      = Cert.Light.quarterSum (s := S100000x32) (val_main_v0 (F := Ideal) x3 x4) (val_main_v17 (F := Ideal) x1 x2 x3 x4)
          (val_main_v30 (F := Ideal) x1 x2 x3 x4) (val_main_v43 (F := Ideal) x1 x2 x3 x4) (ix2 ⟨(x0 (ix1 r)).toInt.toNat, by omega⟩ k) := by
  unfold val_main_v60 val_main_v59 val_main_v58 val_main_v57 val_main_v56 val_main_v55 val_main_v54 val_main_c_9 val_main_c_10
  refine (Cert.RowGather.gather_users (R := 50000) (le_refl _) gather_S50000x32_S1024x1_S1024x32_1_0_n_n_0_1_132_wf
    bcast_S1024_S1024x1_0 bcast_S_S1024 50000#32 x0 (val_main_v52 (F := Ideal) x1 x2 x3 x4) r k h0 h1).trans ?_
  rw [val_main_v52_apply, ← Cert.ReferenceIdeal.Light.light_apply]
  exact congrArg _ (funext fun a => Fin.ext (by match a with | ⟨0, _⟩ => rfl | ⟨1, _⟩ => rfl))

/-- Item row q at feature k: the mean at node 50000 + q. -/
theorem items_apply (q : Fin 50000) (k : Fin 32) :
    val_main_v53 (F := Ideal) x1 x2 x3 x4 (ix2 q k)
      = Cert.Light.quarterSum (s := S100000x32) (val_main_v0 (F := Ideal) x3 x4) (val_main_v17 (F := Ideal) x1 x2 x3 x4)
          (val_main_v30 (F := Ideal) x1 x2 x3 x4) (val_main_v43 (F := Ideal) x1 x2 x3 x4) (ix2 ⟨50000 + q.val, by omega⟩ k) := by
  rw [val_main_v53_apply, ← Cert.ReferenceIdeal.Light.light_apply]
  exact congrArg _ (funext fun a => Fin.ext (by match a with | ⟨0, _⟩ => rfl | ⟨1, _⟩ => rfl))

end Cert.ReferenceIdeal.Rows

end
-- ==== Proof.Bridge.lean ====
/- The two programs' results are one array when every user id names a user. Both are the logistic function of the dot
   products of a user table's rows with an item table's rows, so it is enough that the tables agree entry by entry.
   The item tables are the same rows 50000 … 99999 of the mean of the layer embeddings. The user tables gather rows of
   that mean at the user ids — the kernel from all 100000 rows, the reference from the first 50000 — and for an id in
   0 … 49999 both read the same row. The mean itself is the same number in both spellings (the sum from zero divided
   by 4; the sum times 0.25), and the layer embeddings are the same operations of the same arguments. -/
import proofs.«136475_g48077863911936_cont_8to1_c_1121_21_alg».proof.Proof.KernelBlocks
import proofs.«136475_g48077863911936_cont_8to1_c_1121_21_alg».proof.Proof.KernelHost
import proofs.«136475_g48077863911936_cont_8to1_c_1121_21_alg».proof.Proof.RefScores
import proofs.«136475_g48077863911936_cont_8to1_c_1121_21_alg».proof.Proof.RefRows
import proofs.«136475_g48077863911936_cont_8to1_c_1121_21_alg».proof.Proof.UsersInRange

noncomputable section

namespace Cert.Proof.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- Under the precondition the kernel's score table is the reference's result, both as functions of the kernel's
    argument arrays. -/
theorem scores_eq (c : Dev Cert.KernelIdeal.nD)
    (hp : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) :
    Cert.KernelIdeal.Rating.scores (Cert.KernelIdeal.Gen.V m c Cert.KernelIdeal.main_v55) (Cert.KernelIdeal.Gen.V m c Cert.KernelIdeal.main_v56)
      = Cert.ReferenceIdeal.ReadP.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  funext i
  obtain ⟨r, q, rfl⟩ : ∃ (r : Fin 1024) (q : Fin 50000), i = ix2 r q := ⟨i 0, i 1, eq_ix2 i⟩
  obtain ⟨h0, h1⟩ := Cert.Pre_finite_inputs.Range.users_in_range _ _ _ _ _ hp (ix1 r)
  rw [Cert.ReferenceIdeal.Scores.result_apply, Cert.KernelIdeal.Rating.scores_at]
  refine congrArg Ideal.logistic (Finset.sum_congr rfl fun k _ => ?_)
  rw [Cert.KernelIdeal.Host.V55_eq, Cert.KernelIdeal.Host.V56_eq, Cert.KernelIdeal.Host.userRowsK_apply _ _ r k h0 h1, Cert.KernelIdeal.Host.itemRowsK_apply,
    Cert.KernelIdeal.Host.lightK_apply, Cert.KernelIdeal.Host.lightK_apply,
    Cert.ReferenceIdeal.Rows.users_apply _ _ _ _ _ r k h0 h1, Cert.ReferenceIdeal.Rows.items_apply]

end Cert.Proof.Bridge

end
-- ==== Proof.lean ====
/- The kernel and the reference compute the same rating table from the same embeddings, for user ids that name users.

   Both programs concatenate the user and item embeddings (100000 nodes, 32 features), propagate them three times
   along the weighted edges, average the four embeddings, and return the logistic function of the dot products of the
   batch users' averaged rows with every item's averaged row (a 1024 by 50000 table).

   They differ in three spellings. (1) The average: the reference stacks the four embeddings, sums the stack from zero
   and divides by 4; the kernel adds them one after the other and multiplies by 0.25. On the extended reals the
   quotient by 4 is the product with 1/4, and 0.25 is exactly 1/4. (2) The batch users' rows: the reference cuts the
   user half (rows 0 … 49999) out of the average and gathers from it, correcting a negative id by 50000; the kernel
   gathers from all 100000 rows, correcting by 100000. For an id in 0 … 49999 both read the same row; outside that
   range they read different rows, which is why the precondition asks that every id be in it. (3) The product: the
   kernel computes it in 16 row blocks of 64 users, each a matrix product of the block with the transposed item rows
   into a zero accumulator followed by the logistic function; the reference computes one product with the transposed
   item table and spells the logistic function 1 / (1 + exp (-x)), which is its definition on the extended reals.
   The row blocks tile the table, and the sums over the 32 features are the same sums.

   The propagation layers are the same operations of the same arguments in both programs and are never opened. No
   finiteness of the float inputs is used. The kernel being its own idealization (the ideal pass rewrote nothing), the
   preservation claim is trivial; the three frames are the generated ones. -/
import proofs.«136475_g48077863911936_cont_8to1_c_1121_21_alg».proof.Defs
import proofs.«136475_g48077863911936_cont_8to1_c_1121_21_alg».proof.Proof.Gen.Kernel
import proofs.«136475_g48077863911936_cont_8to1_c_1121_21_alg».proof.Proof.Gen.Kernel.Skeleton
import proofs.«136475_g48077863911936_cont_8to1_c_1121_21_alg».proof.Proof.Gen.Kernel.Launch
import proofs.«136475_g48077863911936_cont_8to1_c_1121_21_alg».proof.Proof.Gen.Kernel.Points
import proofs.«136475_g48077863911936_cont_8to1_c_1121_21_alg».proof.Proof.Gen.Kernel.Frame
import proofs.«136475_g48077863911936_cont_8to1_c_1121_21_alg».proof.Proof.Gen.KernelIdeal
import proofs.«136475_g48077863911936_cont_8to1_c_1121_21_alg».proof.Proof.Gen.KernelIdeal.Skeleton
import proofs.«136475_g48077863911936_cont_8to1_c_1121_21_alg».proof.Proof.Gen.KernelIdeal.Launch
import proofs.«136475_g48077863911936_cont_8to1_c_1121_21_alg».proof.Proof.Gen.KernelIdeal.Points
import proofs.«136475_g48077863911936_cont_8to1_c_1121_21_alg».proof.Proof.Gen.KernelIdeal.Frame
import proofs.«136475_g48077863911936_cont_8to1_c_1121_21_alg».proof.Proof.Gen.ReferenceIdeal
import proofs.«136475_g48077863911936_cont_8to1_c_1121_21_alg».proof.Proof.Gen.Pre_finite_inputs
import proofs.«136475_g48077863911936_cont_8to1_c_1121_21_alg».proof.Proof.Gen.KernelIdeal.Value
import proofs.«136475_g48077863911936_cont_8to1_c_1121_21_alg».proof.Proof.RefRunP
import proofs.«136475_g48077863911936_cont_8to1_c_1121_21_alg».proof.Proof.RefReadP
import proofs.«136475_g48077863911936_cont_8to1_c_1121_21_alg».proof.Proof.KernelBlocks
import proofs.«136475_g48077863911936_cont_8to1_c_1121_21_alg».proof.Proof.Bridge
import Idealize.ShloMosaic.Adequacy
import Idealize.ShloMosaic.Init

noncomputable section

namespace Cert.Proof

open Idealize.ShloMosaic Idealize.SL.Sem Idealize.ShloMosaic.TcCoe

/-- The word-level kernel runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments, with every user id in 0 … 49999, both programs end with the same rating
    table: the kernel's run ends at the score table of the two tables its host side prepares, the reference's at its
    composed term, and under the precondition those are one array. -/
theorem algebraic : Cert.algebraic_KernelIdeal_ReferenceIdeal := by
  intro m ρ m' ρ' hpre hagree
  refine ⟨fun c => Cert.KernelIdeal.Rating.scores (Cert.KernelIdeal.Gen.V m c Cert.KernelIdeal.main_v55)
      (Cert.KernelIdeal.Gen.V m c Cert.KernelIdeal.main_v56), Cert.KernelIdeal.Rating.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v68_eq, (hagree c).1, (hagree c).2.1, (hagree c).2.2.1, (hagree c).2.2.2.1,
    (hagree c).2.2.2.2]
  exact (Cert.Proof.Bridge.scores_eq m c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
